-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1 : Shape := ⟨2, ![1024, 1]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1 : S_.BroadcastsInDim S1024x1 (![] : Fin 0 → Fin S1024x1.rank)
  reducesTo_S1024x1_S_d0_1 : S1024x1.ReducesTo [0, 1] S_

variable [Facts]

def fn_part1 {F : FTy → Type} [FloatOps F] (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S1024x1 .f32) (main_arg3 : FVec F S1024x1 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x1 .f32 := Host.absf main_arg2
  let main_cst_2 : FVec F S_ .f32 := constant S_ .f32 0x7F800000#32
  let main_v10 : FVec F S1024x1 .f32 := broadcastInDim S1024x1 ![] bcast_S_S1024x1 main_cst_2
  let main_v11 : IVec S1024x1 1 := cmpf .olt main_v9 main_v10
  let main_c_3 : IVec S_ 1 := constantI S_ 1 1#1
  let main_v12 : IVec S_ 1 := (fun x v => Host.reduce IntOp.andi x v reducesTo_S1024x1_S_d0_1 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_v13 main_v16
-- ==== Kernel.lean ====
abbrev S16384x1024 : Shape := ⟨2, ![16384, 1024]⟩
abbrev S1024x1 : Shape := ⟨2, ![1024, 1]⟩
abbrev S1024 : Shape := ⟨1, ![1024]⟩
abbrev S1x1024 : Shape := ⟨2, ![1, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 9
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1, .f32⟩
  | .hbm, ⟨3, _⟩ => ⟨S1024x1, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S1x1024, .f32⟩
  | .hbm, ⟨8, _⟩ => ⟨S16384x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024x1_S1024 : S1024x1.ShapeCasts S1024
  bcast_S1024_S1x1024_1 : S1024.BroadcastsInDim S1x1024 (![1] : Fin 1 → Fin S1x1024.rank)
  inb_S2048x1024_S2048x1024_0_0 : ∀ a, (![0, 0] : Fin 2 → Nat) a + S2048x1024.size a ≤ S2048x1024.size a
  h_S2048x1024 : 0 < S2048x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  reduces_S2048x1024_S2048 : S2048x1024.Reduces [1] S2048
  shapeCasts_S2048_S2048x1 : S2048.ShapeCasts S2048x1
  broadcasts_S2048x1_S2048x1024 : S2048x1.Broadcasts S2048x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S16384x1024.size a
  hwx0_0 : ∀ i : grid0.Coords, EltTy.bits .f32 = 32 ∨ (Rect.block (s := S16384x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S16384x1024.size a
  hwx0_1 : ∀ i : grid0.Coords, EltTy.bits .f32 = 32 ∨ (Rect.block (s := S16384x1024) S2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S16384x1024.size a
  hwx0_4 : ∀ i : grid0.Coords, EltTy.bits .f32 = 32 ∨ (Rect.block (s := S16384x1024) S2048x1024.size (cc0_transform_4 i) (hinb0_4 i)).WholeWords (EltTy.packing .f32)

variable [Facts₀]

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1 : Shape := ⟨2, ![1024, 1]⟩
abbrev S16384x1 : Shape := ⟨2, ![16384, 1]⟩
abbrev S1024 : Shape := ⟨1, ![1024]⟩
abbrev S1x1024 : Shape := ⟨2, ![1, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1, .f32⟩
  | .hbm, ⟨3, _⟩ => ⟨S1024x1, .f32⟩
  | .hbm, ⟨4, _⟩ => ⟨S16384x1, .f32⟩
  | .hbm, ⟨5, _⟩ => ⟨S16384x1024, .f32⟩
  | .hbm, ⟨6, _⟩ => ⟨S16384x1024, .f32⟩
  | .hbm, ⟨7, _⟩ => ⟨S1024, .f32⟩
  | .hbm, ⟨8, _⟩ => ⟨S1x1024, .f32⟩
  | .hbm, ⟨9, _⟩ => ⟨S16384x1024, .f32⟩
  | .hbm, ⟨10, _⟩ => ⟨S16384x1024, .f32⟩
  | .hbm, ⟨11, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S16384x1_S16384x1024_0_1 : S16384x1.BroadcastsInDim S16384x1024 (![0, 1] : Fin 2 → Fin S16384x1024.rank)
  shapeCasts_S1024x1_S1024 : S1024x1.ShapeCasts S1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x1024_S1024x1_S16384x1_1_0_0_1_n_n_wf : DotDims.WF S16384x1024 S1024x1 S16384x1 [1] [0] [0] [1] [] []

variable [Facts₀]

def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf

class Facts : Prop extends Facts₀ where

variable [Facts]
-- ==== Proof.CrossSpec.lean ====
/-
  The cross layer as ONE function of its four argument arrays, index by index, on the extended reals.

  For a batch of 16384 rows of 1024 features, a weight column `w` and a bias column `b` (both 1024 × 1):

      out[r, d] = (x0[r, d] · (Σₖ xl[r, k] · w[k, 0]) + b[d, 0]) + xl[r, d].

  The inner sum is row `r` of `xl` projected on the weight column: one number per row, shared by the
  row's 1024 entries. The grouping of the two outer additions is the one both programs compute, so no
  law of the extended reals beyond the ones their sums already satisfy is needed to compare them with
  this function: in particular nothing here asks the entries to be finite.
-/
import Idealize.ShloMosaic.PureOps.Ideal
import Idealize.ShloMosaic.Lib.ValueIdx

noncomputable section

open scoped BigOperators

namespace Cert.CrossLayer

open Idealize.ShloMosaic Idealize.ShloMosaic.ValueIdx

/-- A batch of 16384 rows of 1024 features. -/
abbrev Batch : Shape := ⟨2, ![16384, 1024]⟩
/-- A column of 1024 numbers (the weights, the biases). -/
abbrev Column : Shape := ⟨2, ![1024, 1]⟩

/-- Row `r` of `xl` projected on the weight column: `Σₖ xl[r, k] · w[k, 0]`. -/
def proj (xl : Batch.Idx → EReal) (w : Column.Idx → EReal) (r : Fin 16384) : EReal :=
  ∑ k : Fin 1024, xl (ix2 r k) * w (ix2 k (0 : Fin 1))

/-- The layer's entry at row `r`, feature `d`. -/
def entry (x0 xl : Batch.Idx → EReal) (w b : Column.Idx → EReal) (r : Fin 16384) (d : Fin 1024) : EReal :=
  (x0 (ix2 r d) * proj xl w r + b (ix2 d (0 : Fin 1))) + xl (ix2 r d)

/-- The layer's whole result array. -/
def cross (x0 xl : Batch.Idx → EReal) (w b : Column.Idx → EReal) : Batch.Idx → EReal :=
  fun i => entry x0 xl w b (i 0) (i 1)

/-- At an index given by its coordinates the array is the entry. -/
theorem cross_ix2 (x0 xl : Batch.Idx → EReal) (w b : Column.Idx → EReal) (r : Fin 16384) (d : Fin 1024) :
    cross x0 xl w b (ix2 r d) = entry x0 xl w b r d := rfl

end Cert.CrossLayer

end
-- ==== Proof.ReferenceReading.lean ====
/-
  The reference program's result is the cross layer (CrossSpec.lean), index by index.

  The reference computes, on the host, `(x0 · bcast(xl · w) + bcast(b)) + xl`: a matrix product of the
  batch with the weight column — one number per row —, spread over the row's 1024 features; the bias
  column re-laid as a row and spread over the 16384 rows. Read at (r, d), operation by operation:
  the product's entry is the sum over k of xl[r, k] · w[k, 0]; the spread product at (r, d) is its entry
  at (r, 0); the spread bias at (r, d) is b[d, 0]. That is `CrossLayer.entry` as it stands.
-/
import proofs.«103822_j34686155882557_2_alg».proof.Proof.Gen.ReferenceIdeal.Read
import proofs.«103822_j34686155882557_2_alg».proof.Proof.CrossSpec

noncomputable section

open scoped BigOperators

namespace Cert.CrossLayer.Reference

open Cert.ReferenceIdeal Cert.ReferenceIdeal.Gen Cert.ReferenceIdeal.Read
open Idealize.ShloMosaic Idealize.ShloMosaic.ValueIdx Cert.CrossLayer

/-- The product's left operand index for output row `r` and contraction index `k` is (r, k). -/
theorem left_index (r : Fin 16384) (d : Fin 1024) (k : Fin 1024) :
    lidx_main_v0 (idx_main_v1 (ix2 r d)) k = ix2 r k :=
  funext fun a => Fin.ext (by match a with | ⟨0, _⟩ => rfl | ⟨1, _⟩ => rfl)

/-- Its right operand index is (k, 0): the weight column's entry k. -/
theorem right_index (r : Fin 16384) (d : Fin 1024) (k : Fin 1024) :
    ridx_main_v0 (idx_main_v1 (ix2 r d)) k = ix2 k (0 : Fin 1) :=
  funext fun a => Fin.ext (by match a with | ⟨0, _⟩ => rfl | ⟨1, _⟩ => rfl)

/-- The bias, re-laid as a row and spread over the rows, is read at (r, d) from the column's entry (d, 0). -/
theorem bias_index (r : Fin 16384) (d : Fin 1024) :
    idx_main_v3 (idx_main_v4 (idx_main_v5 (ix2 r d))) = ix2 d (0 : Fin 1) :=
  funext fun a => Fin.ext (by match a with | ⟨0, _⟩ => exact Nat.div_one _ | ⟨1, _⟩ => rfl)

/-- The reference's last stage is the cross layer of its four arguments. -/
theorem result_eq (x0 x1 : FVec Ideal S16384x1024 .f32) (x2 x3 : FVec Ideal S1024x1 .f32) :
    val_main_v7 (F := Ideal) x0 x1 x2 x3 = cross x0 x1 x2 x3 := by
  funext i
  obtain ⟨r, d, rfl⟩ : ∃ (r : Fin 16384) (d : Fin 1024), i = ix2 r d := ⟨i 0, i 1, eq_ix2 i⟩
  rw [cross_ix2, val_main_v7_apply, val_main_v6_apply, val_main_v2_apply, val_main_v1_apply, val_main_v0_apply,
    val_main_v5_apply, val_main_v4_apply, val_main_v3_apply, bias_index]
  simp only [left_index, right_index]
  rfl

end Cert.CrossLayer.Reference

end
-- ==== Proof.BodyReading.lean ====
/-
  What the kernel's body leaves in its output block, read at one entry, on the extended reals.

  At a grid point the body holds a block of 2048 rows of `x0` (P0) and of `xl` (P1), the weight row (P2) and
  the bias row (P3), both 1 × 1024. It spreads the weight row over the 2048 rows, multiplies it into the
  `xl` block entry by entry, sums each row over its 1024 lanes starting from zero, re-lays the 2048 sums as a
  column, spreads the column over the 1024 features, and leaves `(P0 · sums + bias row) + P1`.

  The generated value leg has already taken that term apart down to the lane sum (`Value.E4`, over the index
  maps `ix4_0 … ix4_3`). Here the lane sum is read as the `Fin 1024`-indexed sum it is on the extended reals
  (a sum that starts from the zero word is the sum), each index map is evaluated at (r, d), and the entry is
  stated over explicit coordinates:

      block[r, d] = (P0[r, d] · Σₖ P1[r, k] · P2[0, k] + P3[0, d]) + P1[r, d].
-/
import proofs.«103822_j34686155882557_2_alg».proof.Proof.Gen.KernelIdeal.Value
import Idealize.ShloMosaic.Lib.ValueIdx
import Idealize.ShloMosaic.PureOps.Ideal.Laws

noncomputable section

open scoped BigOperators

namespace Cert.CrossLayer.Body

open Cert.KernelIdeal Cert.KernelIdeal.Gen Cert.KernelIdeal.Value
open Idealize.ShloMosaic Idealize.ShloMosaic.ValueIdx

/-- A 1 × 1024 row spread over 2048 rows, read at (r, k), is the row's entry k. -/
theorem spread_row (P : FVec Ideal S1x1024 .f32) (r : Fin 2048) (k : Fin 1024) :
    broadcastTo S2048x1024 (shapeCast S1x1024 P shapeCasts_S1x1024_S1x1024) broadcasts_S1x1024_S2048x1024 (ix2 r k)
      = P (ix2 (0 : Fin 1) k) := by
  refine (broadcastTo_apply _ _ (ix2 r k) (ix2 (0 : Fin 1) k) (fun a => match a with
    | ⟨0, _⟩ => by show 0 = (if (1 : Nat) = 1 then 0 else r.val); rw [if_pos rfl]
    | ⟨1, _⟩ => by show k.val = (if (1024 : Nat) = 1 then 0 else k.val); rw [if_neg (by decide)])).trans ?_
  exact shapeCast_apply _ _ (ix2 (0 : Fin 1) k) (ix2 (0 : Fin 1) k) rfl

/-- The source index over row `r` with lane `k` put back is (r, k). -/
theorem lane_index (r : Fin 2048) (k : Fin 1024) :
    reduces_S2048x1024_S2048.lift (ix1 r) k = ix2 r k :=
  funext fun a => Fin.ext (by match a with | ⟨0, _⟩ => rfl | ⟨1, _⟩ => rfl)

/-- The 2048 row sums of the `xl` block against the spread weight row, before they are re-laid. -/
abbrev rowSums (P1 : FVec Ideal S2048x1024 .f32) (P2 : FVec Ideal S1x1024 .f32) : FVec Ideal S2048 .f32 :=
  multiReduction (F := Ideal) .add [1] S2048
    (mulf P1 (broadcastTo S2048x1024 (shapeCast S1x1024 P2 shapeCasts_S1x1024_S1x1024) broadcasts_S1x1024_S2048x1024))
    0x00000000#32 reduces_S2048x1024_S2048 (.inl rfl) rfl

/-- Row `r`'s sum is `Σₖ P1[r, k] · P2[0, k]`: a lane sum from the zero word is the sum over the lanes. -/
theorem rowSums_apply (P1 : FVec Ideal S2048x1024 .f32) (P2 : FVec Ideal S1x1024 .f32) (r : Fin 2048) :
    rowSums P1 P2 (ix1 r) = ∑ k : Fin 1024, P1 (ix2 r k) * P2 (ix2 (0 : Fin 1) k) := by
  refine (Ideal.multiReduction_add_single _ _ reduces_S2048x1024_S2048 _ _ (ix1 r)).trans ?_
  refine Finset.sum_congr rfl fun k _ => ?_
  show P1 (reduces_S2048x1024_S2048.lift (ix1 r) k)
      * broadcastTo S2048x1024 (shapeCast S1x1024 P2 shapeCasts_S1x1024_S1x1024) broadcasts_S1x1024_S2048x1024
          (reduces_S2048x1024_S2048.lift (ix1 r) k) = _
  rw [lane_index r k, spread_row P2 r k]

/-- THE BLOCK AT (r, d): `(P0[r, d] · Σₖ P1[r, k] · P2[0, k] + P3[0, d]) + P1[r, d]`. -/
theorem block_entry (P0 P1 : FVec Ideal S2048x1024 .f32) (P2 P3 : FVec Ideal S1x1024 .f32) (r : Fin 2048) (d : Fin 1024) :
    E4 (F := Ideal) P0 P1 P2 P3 (ix2 r d)
      = (P0 (ix2 r d) * (∑ k : Fin 1024, P1 (ix2 r k) * P2 (ix2 (0 : Fin 1) k)) + P3 (ix2 (0 : Fin 1) d)) + P1 (ix2 r d) := by
  have e0 : ix4_0 (ix2 r d) = ix2 r d :=
    funext fun a => Fin.ext (by match a with | ⟨0, _⟩ => rfl | ⟨1, _⟩ => rfl)
  have e1 : ix4_1 (ix2 r d) = ix1 r :=
    funext fun a => Fin.ext (by match a with | ⟨0, _⟩ => rfl)
  have e2 : ix4_2 (ix2 r d) = ix2 (0 : Fin 1) d :=
    funext fun a => Fin.ext (by match a with | ⟨0, _⟩ => rfl | ⟨1, _⟩ => rfl)
  have e3 : ix4_3 (ix2 r d) = ix2 r d :=
    funext fun a => Fin.ext (by match a with | ⟨0, _⟩ => rfl | ⟨1, _⟩ => rfl)
  show (P0 (ix4_0 (ix2 r d)) * rowSums P1 P2 (ix4_1 (ix2 r d)) + P3 (ix4_2 (ix2 r d))) + P1 (ix4_3 (ix2 r d)) = _
  rw [e0, e1, e2, e3]
  exact congrArg (fun s : EReal => (P0 (ix2 r d) * s + P3 (ix2 (0 : Fin 1) d)) + P1 (ix2 r d)) (rowSums_apply P1 P2 r)

/-- Both offsets of the body's load rectangles and of its one store rectangle are zero. -/
theorem zero_offsets : (![0, 0] : Fin 2 → Nat) = fun _ => 0 := funext fun a => by fin_cases a <;> rfl

/-- A load through the whole 2048 × 1024 rectangle reads the block as it is. -/
theorem load_block (P : Vec Ideal S2048x1024 .f32) : View.ld P r0_0 = P :=
  View.ld_unit_zero zero_offsets _ P

/-- A load through the whole 1 × 1024 rectangle reads the row as it is. -/
theorem load_row (P : Vec Ideal S1x1024 .f32) : View.ld P r0_1 = P :=
  View.ld_unit_zero zero_offsets _ P

/-- What the body leaves in the output block, from the four blocks it is handed, is the generated value leg's
    index-by-index function of them: its loads read the whole blocks and its one store writes the whole block. -/
theorem out_block (P0 P1 : Vec Ideal S2048x1024 .f32) (P2 P3 : Vec Ideal S1x1024 .f32) (y : S2048x1024.Idx) :
    out0_4 (F := Ideal) P0 P1 P2 P3 y = E4 (F := Ideal) P0 P1 P2 P3 y := by
  unfold out0_4
  rw [load_block P0, load_block P1, load_row P2, load_row P3]
  exact canon4_eq P0 P1 P2 P3 y

/-- WHAT THE BODY LEAVES at (r, d): `(P0[r, d] · Σₖ P1[r, k] · P2[0, k] + P3[0, d]) + P1[r, d]`. -/
theorem out_entry (P0 P1 : Vec Ideal S2048x1024 .f32) (P2 P3 : Vec Ideal S1x1024 .f32) (r : Fin 2048) (d : Fin 1024) :
    out0_4 (F := Ideal) P0 P1 P2 P3 (ix2 r d)
      = (P0 (ix2 r d) * (∑ k : Fin 1024, P1 (ix2 r k) * P2 (ix2 (0 : Fin 1) k)) + P3 (ix2 (0 : Fin 1) d)) + P1 (ix2 r d) :=
  (out_block P0 P1 P2 P3 (ix2 r d)).trans (block_entry P0 P1 P2 P3 r d)

end Cert.CrossLayer.Body

end
-- ==== Proof.HostRows.lean ====
/-
  The two 1 × 1024 rows the kernel's program lays out on the host before its region, read at an entry.

  The weight column and the bias column arrive as 1024 × 1 arrays. Before the region starts the host re-lays
  each as a vector of 1024 numbers and spreads that vector along a new leading axis of extent one: a row.
  The region's third and fourth windows stage these rows, not the argument columns. Entry (0, k) of each row
  is entry (k, 0) of its column — a reshape keeps the row-major position, and the new axis has one coordinate.
-/
import proofs.«103822_j34686155882557_2_alg».proof.Proof.Gen.KernelIdeal.Frame
import Idealize.ShloMosaic.Lib.Pipeline.Value
import Idealize.ShloMosaic.Lib.ValueIdx
import Idealize.ShloMosaic.Lib.StableHlo.Run

noncomputable section

namespace Cert.CrossLayer.HostRows

open Cert.KernelIdeal Cert.KernelIdeal.Gen
open Idealize.ShloMosaic Idealize.ShloMosaic.TcCoe Idealize.ShloMosaic.ValueIdx Idealize.SL.Sem Idealize.ShloMosaic.StableHlo

/-- A 1024 × 1 column re-laid as a vector and spread to a 1 × 1024 row: entry (0, k) is the column's (k, 0). -/
theorem row_of_column (x : FVec Ideal S1024x1 .f32) (k : Fin 1024) :
    broadcastInDim S1x1024 ![1] bcast_S1024_S1x1024_1 (shapeCast S1024 x shapeCasts_S1024x1_S1024) (ix2 (0 : Fin 1) k)
      = x (ix2 k (0 : Fin 1)) := by
  refine (broadcastInDim_apply _ bcast_S1024_S1x1024_1 _ (ix2 (0 : Fin 1) k) (ix1 k) (fun a => match a with
    | ⟨0, _⟩ => by show k.val = (if (1024 : Nat) = 1 then 0 else k.val); rw [if_neg (by decide)])).trans ?_
  exact shapeCast_apply x shapeCasts_S1024x1_S1024 (ix1 k) (ix2 k (0 : Fin 1))
    (by rw [Shape.rowMajor_val_two, Shape.rowMajor_val_one]; show k.val * 1 + 0 = k.val; omega)

variable (m : (ℓ : Loc nD τ sig) → Buf (Elt Ideal) ℓ)

/-- The weight row as the region finds it: the host's two operations applied to the weight column as launched. -/
theorem weight_row (c : Dev nD) :
    (V m c main_v1 : S1x1024.Idx → EReal)
      = broadcastInDim S1x1024 ![1] bcast_S1024_S1x1024_1
          (shapeCast S1024 (m ((c : Thread nD τ).loc main_arg2)) shapeCasts_S1024x1_S1024) := by
  dsimp only [Gen.V, Gen.hostOps0]; after_results; rfl

/-- The bias row as the region finds it, likewise from the bias column. -/
theorem bias_row (c : Dev nD) :
    (V m c main_v3 : S1x1024.Idx → EReal)
      = broadcastInDim S1x1024 ![1] bcast_S1024_S1x1024_1
          (shapeCast S1024 (m ((c : Thread nD τ).loc main_arg3)) shapeCasts_S1024x1_S1024) := by
  dsimp only [Gen.V, Gen.hostOps0]; after_results; rfl

/-- Entry (0, k) of the weight row is the weight column's entry (k, 0). -/
theorem weight_row_apply (c : Dev nD) (k : Fin 1024) :
    (V m c main_v1 : S1x1024.Idx → EReal) (ix2 (0 : Fin 1) k) = m ((c : Thread nD τ).loc main_arg2) (ix2 k (0 : Fin 1)) :=
  (congrFun (weight_row m c) (ix2 (0 : Fin 1) k)).trans (row_of_column _ k)

/-- Entry (0, k) of the bias row is the bias column's entry (k, 0). -/
theorem bias_row_apply (c : Dev nD) (k : Fin 1024) :
    (V m c main_v3 : S1x1024.Idx → EReal) (ix2 (0 : Fin 1) k) = m ((c : Thread nD τ).loc main_arg3) (ix2 k (0 : Fin 1)) :=
  (congrFun (bias_row m c) (ix2 (0 : Fin 1) k)).trans (row_of_column _ k)

end Cert.CrossLayer.HostRows

end
-- ==== Proof.KernelArray.lean ====
/-
  From the kernel's eight blocks to its whole result array.

  The region runs the body at 8 grid points. At point `t` the windows of `x0`, of `xl` and of the result all sit
  on block (t, 0): rows 2048·t … 2048·t + 2047, all 1024 features; the weight row and the bias row are whole
  1 × 1024 arrays, the same block at every point. So what point `t` writes back — the body's block, entry
  (r, d) being `(x0blk[r, d] · Σₖ xlblk[r, k] · wrow[0, k] + brow[0, d]) + xlblk[r, d]` (BodyReading.lean) — is
  rows 2048·t … of ONE array, the cross layer of the four arguments (CrossSpec.lean): entry (r, d) of the
  `x0` block is entry (2048·t + r, d) of `x0`, likewise for `xl`, and the rows' entries are the columns'
  (HostRows.lean). The eight blocks cover the 16384 rows (row `R` is in block `R / 2048`), so the array the
  run leaves is that function, everywhere.
-/
import proofs.«103822_j34686155882557_2_alg».proof.Proof.Gen.KernelIdeal.Value
import proofs.«103822_j34686155882557_2_alg».proof.Proof.CrossSpec
import proofs.«103822_j34686155882557_2_alg».proof.Proof.BodyReading
import proofs.«103822_j34686155882557_2_alg».proof.Proof.HostRows

noncomputable section

open scoped BigOperators

namespace Cert.CrossLayer.Kernel

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)
open Cert.CrossLayer

variable (m : (ℓ : Loc nD τ sig) → Buf (Elt Ideal) ℓ) (ρ : Dev nD → PrngReg)

/-- The array the kernel's run leaves on core `c`: the cross layer of the four arguments as launched. -/
def result (c : Dev nD) : Buf (Elt Ideal) ((c : Thread nD τ).loc main_v4) :=
  cross (m ((c : Thread nD τ).loc main_arg0)) (m ((c : Thread nD τ).loc main_arg1))
    (m ((c : Thread nD τ).loc main_arg2)) (m ((c : Thread nD τ).loc main_arg3))

/-! ## Where the windows sit at a point -/

/-- The printed index maps, decided over the 8 points: the two batch inputs move with the result, on block column 0;
    the two rows stay on their one block; the result's block row is at most 7. -/
theorem index_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) ≤ 7 ∧ win0_4.index t (1 : Fin 2) = 0 :=
  (by decide +kernel : ∀ t : Fin grid0.N, _)

/-- Every block row 0 … 7 of the result is some point's. -/
theorem block_onto : ∀ q : Fin 8, ∃ t : Fin cfg0.N, win0_4.index t = ![q.val, 0] :=
  (by decide +kernel : ∀ q : Fin 8, ∃ t : Fin grid0.N, win0_4.index t = ![q.val, 0])

/-- The array row under row `r` of point `t`'s blocks. -/
def rowAt (t : Fin cfg0.N) (r : Fin 2048) : Fin 16384 :=
  ⟨win0_4.index t (0 : Fin 2) * 2048 + r.val, by
    have h := (index_facts t).2.2.2.2.2.2.2.2.1
    have hr := r.isLt
    omega⟩

/-- Entry (r, d) of the result's block at `t` is entry (rowAt t r, d) of the array. -/
theorem result_at (t : Fin cfg0.N) (r : Fin 2048) (d : Fin 1024) :
    ((cfg0.win 4).blk t).view.emb (ix2 r d) = ix2 (rowAt t r) d := by
  obtain ⟨-, -, -, -, -, -, -, -, -, e⟩ := index_facts t
  funext a; apply Fin.ext
  match a with
  | ⟨0, _⟩ => show win0_4.index t (0 : Fin 2) * 2048 + 1 * r.val = win0_4.index t (0 : Fin 2) * 2048 + r.val; omega
  | ⟨1, _⟩ => show win0_4.index t (1 : Fin 2) * 1024 + 1 * d.val = d.val; omega

/-! ## The four input blocks at a point, read off the arguments -/

/-- Entry (r, d) of the `x0` block at `t`. -/
theorem x0_block (c : Dev nD) (t : Fin cfg0.N) (r : Fin 2048) (d : Fin 1024) :
    iblk m c 0 t (ix2 r d) = m ((c : Thread nD τ).loc main_arg0) (ix2 (rowAt t r) d) := by
  obtain ⟨e0, e1, -⟩ := index_facts t
  have h : ((cfg0.win 0).blk t).view.emb (ix2 r d) = ix2 (rowAt t r) d := by
    funext a; apply Fin.ext
    match a with
    | ⟨0, _⟩ => show win0_0.index t (0 : Fin 2) * 2048 + 1 * r.val = win0_4.index t (0 : Fin 2) * 2048 + r.val; omega
    | ⟨1, _⟩ => show win0_0.index t (1 : Fin 2) * 1024 + 1 * d.val = d.val; omega
  show V m c main_arg0 (((cfg0.win 0).blk t).view.emb (ix2 r d)) = _
  rw [h, V_main_arg0]

/-- Entry (r, k) of the `xl` block at `t`. -/
theorem xl_block (c : Dev nD) (t : Fin cfg0.N) (r : Fin 2048) (k : Fin 1024) :
    iblk m c 1 t (ix2 r k) = m ((c : Thread nD τ).loc main_arg1) (ix2 (rowAt t r) k) := by
  obtain ⟨-, -, e0, e1, -⟩ := index_facts t
  have h : ((cfg0.win 1).blk t).view.emb (ix2 r k) = ix2 (rowAt t r) k := by
    funext a; apply Fin.ext
    match a with
    | ⟨0, _⟩ => show win0_1.index t (0 : Fin 2) * 2048 + 1 * r.val = win0_4.index t (0 : Fin 2) * 2048 + r.val; omega
    | ⟨1, _⟩ => show win0_1.index t (1 : Fin 2) * 1024 + 1 * k.val = k.val; omega
  show V m c main_arg1 (((cfg0.win 1).blk t).view.emb (ix2 r k)) = _
  rw [h, V_main_arg1]

/-- Entry (0, k) of the weight row's block — the whole row, at every point — is the weight column's (k, 0). -/
theorem weight_block (c : Dev nD) (t : Fin cfg0.N) (k : Fin 1024) :
    iblk m c 2 t (ix2 (0 : Fin 1) k) = m ((c : Thread nD τ).loc main_arg2) (ix2 k (0 : Fin 1)) := by
  obtain ⟨-, -, -, -, e0, e1, -⟩ := index_facts t
  have h : ((cfg0.win 2).blk t).view.emb (ix2 (0 : Fin 1) k) = ix2 (0 : Fin 1) k := by
    funext a; apply Fin.ext
    match a with
    | ⟨0, _⟩ => show win0_2.index t (0 : Fin 2) * 1 + 1 * 0 = 0; omega
    | ⟨1, _⟩ => show win0_2.index t (1 : Fin 2) * 1024 + 1 * k.val = k.val; omega
  show V m c main_v1 (((cfg0.win 2).blk t).view.emb (ix2 (0 : Fin 1) k)) = _
  rw [h]
  exact HostRows.weight_row_apply m c k

/-- Entry (0, d) of the bias row's block is the bias column's (d, 0). -/
theorem bias_block (c : Dev nD) (t : Fin cfg0.N) (d : Fin 1024) :
    iblk m c 3 t (ix2 (0 : Fin 1) d) = m ((c : Thread nD τ).loc main_arg3) (ix2 d (0 : Fin 1)) := by
  obtain ⟨-, -, -, -, -, -, e0, e1, -⟩ := index_facts t
  have h : ((cfg0.win 3).blk t).view.emb (ix2 (0 : Fin 1) d) = ix2 (0 : Fin 1) d := by
    funext a; apply Fin.ext
    match a with
    | ⟨0, _⟩ => show win0_3.index t (0 : Fin 2) * 1 + 1 * 0 = 0; omega
    | ⟨1, _⟩ => show win0_3.index t (1 : Fin 2) * 1024 + 1 * d.val = d.val; omega
  show V m c main_v3 (((cfg0.win 3).blk t).view.emb (ix2 (0 : Fin 1) d)) = _
  rw [h]
  exact HostRows.bias_row_apply m c d

/-! ## What a point writes back is its block of the cross layer -/

/-- Two entries with the same outer terms are equal when their inner sums are. -/
theorem entry_congr (a b e s s' : EReal) (h : s = s') : (a * s + b) + e = (a * s' + b) + e := by rw [h]

/-- WHAT POINT `t` WRITES BACK is block `t` of the cross layer of the arguments: at block entry (r, d) the body's
    value, with each of the four input blocks read off its argument, is the layer's entry at (rowAt t r, d) — the
    outer terms literally, the inner sums term by term. -/
theorem flushed_eq (c : Dev nD) (t : Fin cfg0.N) :
    (dats m 0 c).flushed 4 t = ((cfg0.win 4).blk t).view.read (Elt Ideal) (result m c) := by
  rw [flushed4]
  funext j
  obtain ⟨r, d, rfl⟩ : ∃ (r : Fin 2048) (d : Fin 1024), j = ix2 r d := ⟨j 0, j 1, eq_ix2 j⟩
  show out0_4 (iblk m c 0 t) (iblk m c 1 t) (iblk m c 2 t) (iblk m c 3 t) (ix2 r d)
      = result m c (((cfg0.win 4).blk t).view.emb (ix2 r d))
  rw [result_at t r d]
  refine (Body.out_entry (iblk m c 0 t) (iblk m c 1 t) (iblk m c 2 t) (iblk m c 3 t) r d).trans ?_
  rw [x0_block m c t r d, xl_block m c t r d, bias_block m c t d]
  show _ = entry (m ((c : Thread nD τ).loc main_arg0)) (m ((c : Thread nD τ).loc main_arg1))
    (m ((c : Thread nD τ).loc main_arg2)) (m ((c : Thread nD τ).loc main_arg3)) (rowAt t r) d
  unfold entry proj
  refine entry_congr _ _ _ _ _ ?_
  exact Finset.sum_congr rfl fun k _ => by rw [xl_block m c t r k, weight_block m c t k]

/-! ## The blocks cover the array -/

/-- An index of the array is in point `t`'s block iff each coordinate is in the block's range on its axis. -/
theorem mem_block (t : Fin cfg0.N) (i : S16384x1024.Idx) :
    i ∈ ((cfg0.win 4).blk t).view.set ↔ ∀ a : Fin 2, win0_4.index t a * S2048x1024.size a ≤ (i a).val
      ∧ (i a).val < win0_4.index t a * S2048x1024.size a + S2048x1024.size a := by
  show i ∈ ((View.whole main_v4).slice (win0_4.rect t)).set ↔ _
  rw [View.set_slice_whole, Rect.mem_set_unit]
  exact Iff.rfl

/-- Every index of the array is in the block of the point whose block row is its row divided by 2048. -/
theorem covered (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  obtain ⟨t, ht⟩ := block_onto ⟨(i 0).val / 2048, by omega⟩
  have q0 : win0_4.index t (0 : Fin 2) = (i 0).val / 2048 := congrFun ht 0
  have q1 : win0_4.index t (1 : Fin 2) = 0 := congrFun ht 1
  refine ⟨t, flush0_4 t, ?_⟩
  rw [mem_block]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 1024 ≤ (i 1).val ∧ (i 1).val < win0_4.index t (1 : Fin 2) * 1024 + 1024; omega

/-! ## The array, and the run -/

/-- The array after the run is the cross layer of the arguments. -/
theorem final (c : Dev nD) : (dats m 0 c).arrAt 4 cfg0.N = result m c :=
  (dats m 0 c).arrAt_eq_of_cover 4 (result m c) (fun t _ => flushed_eq m c t) covered

/-- Every weakly fair execution of the idealized kernel's program terminates with the result array at the cross layer
    of the arguments, and the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.CrossLayer.Kernel

end
-- ==== Proof.lean ====
/-
  A cross layer computed block by block on the TensorCore equals its plain jnp reference on the extended reals.

  Both programs compute, for a batch of 16384 rows of 1024 features, a weight column and a bias column,

      out[r, d] = (x0[r, d] · (Σₖ xl[r, k] · w[k, 0]) + b[d, 0]) + xl[r, d]          (CrossSpec.lean).

  The reference takes the inner sum as a matrix product of the batch with the weight column and spreads it, and the
  bias, over the array (ReferenceReading.lean, over the generated reading of its host operations). The kernel first
  re-lays the two columns as rows on the host (HostRows.lean), then at each of 8 grid points takes 2048 rows of `x0`
  and of `xl`, multiplies the `xl` rows by the weight row and sums each over its lanes from zero, and writes the 2048
  result rows back (BodyReading.lean, over the generated value leg); the eight blocks tile the array
  (KernelArray.lean). The two inner sums are the same finite sum of the same products, the outer operations are the
  same in the same grouping, and there is no constant but the zero the lane sum starts from: nothing in the comparison
  needs an entry to be finite, so the precondition is never opened.

  The three frames are the generated ones (the reference's is its generated run with the result dropped); the ideal
  pass rewrote no operation, so there is nothing to preserve.
-/
import proofs.«103822_j34686155882557_2_alg».proof.Defs
import proofs.«103822_j34686155882557_2_alg».proof.Proof.Gen.Kernel
import proofs.«103822_j34686155882557_2_alg».proof.Proof.Gen.Kernel.Skeleton
import proofs.«103822_j34686155882557_2_alg».proof.Proof.Gen.Kernel.Launch
import proofs.«103822_j34686155882557_2_alg».proof.Proof.Gen.Kernel.Points
import proofs.«103822_j34686155882557_2_alg».proof.Proof.Gen.Kernel.Frame
import proofs.«103822_j34686155882557_2_alg».proof.Proof.Gen.KernelIdeal
import proofs.«103822_j34686155882557_2_alg».proof.Proof.Gen.KernelIdeal.Skeleton
import proofs.«103822_j34686155882557_2_alg».proof.Proof.Gen.KernelIdeal.Launch
import proofs.«103822_j34686155882557_2_alg».proof.Proof.Gen.KernelIdeal.Points
import proofs.«103822_j34686155882557_2_alg».proof.Proof.Gen.KernelIdeal.Frame
import proofs.«103822_j34686155882557_2_alg».proof.Proof.Gen.KernelIdeal.Value
import proofs.«103822_j34686155882557_2_alg».proof.Proof.Gen.ReferenceIdeal
import proofs.«103822_j34686155882557_2_alg».proof.Proof.Gen.ReferenceIdeal.Run
import proofs.«103822_j34686155882557_2_alg».proof.Proof.Gen.ReferenceIdeal.Read
import proofs.«103822_j34686155882557_2_alg».proof.Proof.Gen.Pre_finite_inputs
import Idealize.ShloMosaic.Adequacy
import Idealize.ShloMosaic.Init
import proofs.«103822_j34686155882557_2_alg».proof.Proof.CrossSpec
import proofs.«103822_j34686155882557_2_alg».proof.Proof.ReferenceReading
import proofs.«103822_j34686155882557_2_alg».proof.Proof.KernelArray

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments, the kernel's program ends with its result array at the cross layer
    of them (KernelArray.lean) and the reference's with its result at its last stage, which is the same function
    (ReferenceReading.lean). -/
theorem algebraic : Cert.algebraic_KernelIdeal_ReferenceIdeal := by
  intro m ρ m' ρ' _ hagree
  refine ⟨fun c => Cert.CrossLayer.Kernel.result m c, Cert.CrossLayer.Kernel.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v7_eq _ _ _ _).trans ((Cert.CrossLayer.Reference.result_eq _ _ _ _).trans ?_)
  rw [(hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
